-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S2x1600000 32) (main_arg2 : FVec F S128x64 .f32) (main_arg3 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩

abbrev nBuf : Space → Nat
  | .hbm => 81
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1700000x1, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S1x64, .f32⟩
  | .hbm, ⟨80, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_c_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v57) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v58) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v59) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S100000x64 : Shape := ⟨2, ![100000, 64]⟩
abbrev S1x64 : Shape := ⟨2, ![1, 64]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1700000x1, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_c_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibJoinPair.lean ====
/-
  Two arrays joined along an axis, with the side condition stated of the shapes alone.

  The joined array `concatenate t a [⟨s₁, x₁⟩, ⟨s₂, x₂⟩] h` carries a side condition `h` whose statement mentions the list
  of (shape, array) pairs, although it only reads the shapes. That dependence stands in the way of rewriting the two
  arrays in place: a rewriting pass keeps the whole list fixed. `joinPair` is the same function with the side condition
  stated of `[s₁, s₂]`; the two are equal by unfolding, for any element type, any shapes and any axis. Rewriting a
  two-piece join to `joinPair` lets a later pass reach the two arrays.
-/
import Idealize.ShloMosaic.PureOps.ShapeOps

noncomputable section

namespace Cert.JoinPair

open Idealize.ShloMosaic

/-- Two arrays joined along axis `a` of the result shape `t`. -/
def joinPair {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A two-piece join is `joinPair` of its pieces: a rewrite rule from the list form to the form whose arrays can be
    rewritten. -/
theorem concatenate_pair_eq {α : Type} (t : Shape) (a : Fin t.rank) (s₁ s₂ : Shape) (x₁ : s₁.Idx → α) (x₂ : s₂.Idx → α)
    (h : Shape.Concatenates (List.map (fun p : (s : Shape) × (s.Idx → α) => p.1) [⟨s₁, x₁⟩, ⟨s₂, x₂⟩]) t a) :
    concatenate t a [⟨s₁, x₁⟩, ⟨s₂, x₂⟩] h = joinPair t a s₁ s₂ h x₁ x₂ := rfl

end Cert.JoinPair

end
-- ==== Proof.AffineSpec.lean ====
/-
  The affine map both programs end in.

  Given a feature matrix X of shape [A, K], a weight matrix W of shape [K, B] and a bias vector b of shape [B], the
  result has, in row p and column q, the number

      (X · W + b)(p, q) = (∑ k < K, X(p, k) · W(k, q)) + b(q).

  The sum and the products are taken in the extended reals. Nothing below distributes a product over a sum or cancels
  anything, so no finiteness of the entries is ever needed: the two programs are compared entry by entry as the SAME
  expression of the same numbers.
-/
import Idealize.ShloMosaic.Lib.ValueIdx
import Idealize.ShloMosaic.PureOps.Ideal.Laws

open scoped BigOperators

noncomputable section

namespace Cert.Affine

open Idealize.ShloMosaic Idealize.ShloMosaic.ValueIdx

/-- Row `p`, column `q` of `X · W + b`. -/
def entry {A K B : Nat} (X : (⟨2, ![A, K]⟩ : Shape).Idx → EReal) (W : (⟨2, ![K, B]⟩ : Shape).Idx → EReal)
    (b : (⟨1, ![B]⟩ : Shape).Idx → EReal) (p : Fin A) (q : Fin B) : EReal :=
  (∑ k : Fin K, X (ix2 p k) * W (ix2 k q)) + b (ix1 q)

/-- The whole array `X · W + b`, index by index. -/
def out {A K B : Nat} (X : (⟨2, ![A, K]⟩ : Shape).Idx → EReal) (W : (⟨2, ![K, B]⟩ : Shape).Idx → EReal)
    (b : (⟨1, ![B]⟩ : Shape).Idx → EReal) : (⟨2, ![A, B]⟩ : Shape).Idx → EReal :=
  fun i => entry X W b (i 0) (i 1)

/-- The array at the index built from a row and a column is the entry there. -/
theorem out_ix2 {A K B : Nat} (X : (⟨2, ![A, K]⟩ : Shape).Idx → EReal) (W : (⟨2, ![K, B]⟩ : Shape).Idx → EReal)
    (b : (⟨1, ![B]⟩ : Shape).Idx → EReal) (p : Fin A) (q : Fin B) : out X W b (ix2 p q) = entry X W b p q := rfl

end Cert.Affine

end
-- ==== Proof.RefAffine.lean ====
/-
  The reference's result is the affine map of its propagated features.

  The reference's last four operations are a `dot_general` of the propagated feature matrix (its value `%57`, of shape
  [100000, 128]) with the weights, two broadcasts that spread the bias over the rows, and an addition. Read at an index
  (r, c) — each operation's own read-at-an-index lemma, outermost first — the result is

      (∑ k < 128, features(r, k) · W(k, c)) + b(c),

  which is the affine map of Proof/AffineSpec.lean applied to the propagated features, the weights and the bias. The
  propagated features themselves (two rounds of gather, scale and scatter-add over the graph's edges) stay one unopened
  function of the inputs.
-/
import proofs.«123764_j47107201303130_1_alg».proof.Proof.RefReadP
import proofs.«123764_j47107201303130_1_alg».proof.Proof.AffineSpec

open scoped BigOperators

noncomputable section

namespace Cert.ReferenceIdeal.Affine

open Cert.ReferenceIdeal Cert.ReferenceIdeal.ReadP Idealize.ShloMosaic Idealize.ShloMosaic.ValueIdx

/-- The reference's result array is `features · W + b`, index by index, at the ideal values. -/
theorem result_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal)) :
    val_main_v61 (F := Ideal) x0 x1 x2 x3
      = Cert.Affine.out (A := 100000) (K := 128) (B := 64) (val_main_v57 (F := Ideal) x0 x1) x2 x3 := by
  funext i
  have el : ∀ k : Fin 128, lidx_main_v58 i k = ix2 (i 0) k := fun k => funext fun a => Fin.ext (by
    match a with | ⟨0, _⟩ => rfl | ⟨1, _⟩ => rfl)
  have er : ∀ k : Fin 128, ridx_main_v58 i k = ix2 k (i 1) := fun k => funext fun a => Fin.ext (by
    match a with | ⟨0, _⟩ => rfl | ⟨1, _⟩ => rfl)
  have eb : idx_main_v59 (idx_main_v60 i) = ix1 (i 1) := funext fun a => Fin.ext (by
    match a with | ⟨0, _⟩ => rfl)
  rw [val_main_v61_apply, val_main_v58_apply, val_main_v60_apply, val_main_v59_apply]
  simp only [el, er, eb]
  rfl

end Cert.ReferenceIdeal.Affine

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.KernelEntry.lean ====
/-
  One block of the kernel's result, entry by entry.

  At a grid point the kernel body holds a block `x` of 10000 rows of the feature matrix (shape [10000, 128]), the whole
  weight matrix `w` (shape [128, 64]) and the bias as a one-row matrix `b` (shape [1, 64]). It rounds `x` and `w` to
  bf16 — the identity on the extended reals —, multiplies them into a zero accumulator, and adds the bias row broadcast
  over the rows. So row `p`, column `q` of what it stores is

      (∑ k < 128, x(p, k) · w(k, q)) + b(0, q).

  The product of the two matrices at (p, q) is the plain sum over the contracted axis (Proof/LibPlainDot.lean); the
  zero accumulator contributes the real number 0; the broadcast row is read at its only row.
-/
import proofs.«123764_j47107201303130_1_alg».proof.Proof.Gen.KernelIdeal.Skeleton
import proofs.«123764_j47107201303130_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Block

open Cert.KernelIdeal Cert.KernelIdeal.Gen Idealize.ShloMosaic Idealize.ShloMosaic.ValueIdx

/-- The block product at (p, q): rounding to bf16 changes nothing at the ideal values, the accumulator is zero, and the
    contraction over the shared axis of extent 128 is the plain sum. -/
theorem product_entry (x : FVec Ideal S10000x128 .f32) (w : FVec Ideal S128x64 .f32) (p : Fin 10000) (q : Fin 64) :
    matmul dot_S10000x128_S128x64_S10000x64_1_0_0_1_n_n none
        (truncf .bf16 (shapeCast S10000x128 x shapeCasts_S10000x128_S10000x128) bitsLt_bf16_f32)
        (truncf .bf16 w bitsLt_bf16_f32) (constant (F := Ideal) S10000x64 .f32 0x00000000#32) (ix2 p q)
      = ∑ k : Fin 128, x (ix2 p k) * w (ix2 k q) := by
  refine (Ideal.matmul_constant_zero_apply dot_S10000x128_S128x64_S10000x64_1_0_0_1_n_n none _ _ (ix2 p q)).trans ?_
  refine (Cert.PlainDot.sum_eq dot_S10000x128_S128x64_S10000x64_1_0_0_1_n_n rfl rfl rfl rfl rfl rfl rfl rfl _ _ p q).trans ?_
  refine Finset.sum_congr rfl fun k _ => ?_
  rw [shapeCast_self]
  rfl

/-- The bias row broadcast over the rows, at (p, q): the row's entry in column q. -/
theorem bias_entry (b : FVec Ideal S1x64 .f32) (p : Fin 10000) (q : Fin 64) :
    broadcastTo S10000x64 (shapeCast S1x64 b shapeCasts_S1x64_S1x64) broadcasts_S1x64_S10000x64 (ix2 p q)
      = b (ix2 (0 : Fin 1) q) := by
  rw [shapeCast_self]
  exact broadcastTo_1b_ab_apply b broadcasts_S1x64_S10000x64 p q

/-- What the body stores, at row `p` and column `q` of the block. -/
theorem stored_entry (x : Vec Ideal S10000x128 .f32) (w : Vec Ideal S128x64 .f32) (b : Vec Ideal S1x64 .f32)
    (p : Fin 10000) (q : Fin 64) :
    k0_pay1 (F := Ideal) x w b (ix2 p q) = (∑ k : Fin 128, x (ix2 p k) * w (ix2 k q)) + b (ix2 (0 : Fin 1) q) := by
  unfold k0_pay1
  refine (addf_apply _ _ (ix2 p q)).trans ?_
  rw [product_entry x w p q, bias_entry b p q]

end Cert.KernelIdeal.Block

end
-- ==== Proof.KernelArray.lean ====
/-
  From the kernel's ten blocks to its whole result array.

  The grid has ten points. At point `t` the pipeline hands the body rows `10000·t … 10000·t + 9999` of the propagated
  feature matrix (the array the host operations before the launch leave in `%57`), the whole weight matrix and the whole
  one-row bias matrix, and writes the body's result back to the same rows of the result array. The body's result at row
  `p`, column `q` of the block is `(∑ k, x(p, k) · w(k, q)) + b(0, q)` (Proof/KernelEntry.lean), and row `p` of block `t`
  is row `10000·t + p` of the array: so every point writes back a block of ONE array, the affine map
  `features · W + b` of Proof/AffineSpec.lean. The ten blocks cover the 100000 rows (row `r` lies in block `r / 10000`),
  so that array is what the result buffer ends holding.
-/
import proofs.«123764_j47107201303130_1_alg».proof.Proof.Gen.KernelIdeal.Value
import proofs.«123764_j47107201303130_1_alg».proof.Proof.KernelEntry
import proofs.«123764_j47107201303130_1_alg».proof.Proof.AffineSpec
import Idealize.ShloMosaic.Lib.Pipeline.Value

open scoped BigOperators

noncomputable section

namespace Cert.KernelIdeal.Whole

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the ten grid points: the feature window and the result window both sit at block row `t`,
    block column 0; the weight and bias windows never move. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- THE ARRAY the kernel ends with, as a function of the three arrays its input windows read — the propagated
    features, the weights, and the bias as a one-row matrix: their affine map. -/
def target (X : S100000x128.Idx → EReal) (W : S128x64.Idx → EReal) (B : S1x64.Idx → EReal) : S100000x64.Idx → EReal :=
  Cert.Affine.out (A := 100000) (K := 128) (B := 64) X W (fun j => B (ix2 (0 : Fin 1) (j 0)))

/-- Row `p` of the feature window's block at point `t` is row `10000·t + p` of the feature array, whatever the array. -/
theorem feature_block (f : S100000x128.Idx → EReal) (t : Fin cfg0.N) (y : S10000x128.Idx) (i : S100000x128.Idx)
    (h0 : (i 0).val = t.val * 10000 + (y 0).val) (h1 : (i 1).val = (y 1).val) :
    ((cfg0.win 0).blk t).view.read (Elt Ideal) f y = f i := by
  obtain ⟨e0, e1, -⟩ := block_indices t
  rw [View.read_apply]
  refine congrArg f (funext fun a => Fin.ext ?_)
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The weight window's block at any point is the whole weight array, whatever the array. -/
theorem weight_block (f : S128x64.Idx → EReal) (t : Fin cfg0.N) (y i : S128x64.Idx)
    (h0 : (i 0).val = (y 0).val) (h1 : (i 1).val = (y 1).val) :
    ((cfg0.win 1).blk t).view.read (Elt Ideal) f y = f i := by
  obtain ⟨-, -, e0, e1, -⟩ := block_indices t
  rw [View.read_apply]
  refine congrArg f (funext fun a => Fin.ext ?_)
  match a with
  | ⟨0, _⟩ => show win0_1.index t (0 : Fin 2) * 128 + 1 * (y 0).val = (i 0).val; rw [e0, h0]; omega
  | ⟨1, _⟩ => show win0_1.index t (1 : Fin 2) * 64 + 1 * (y 1).val = (i 1).val; rw [e1, h1]; omega

/-- The bias window's block at any point is the whole one-row bias array, whatever the array. -/
theorem bias_block (f : S1x64.Idx → EReal) (t : Fin cfg0.N) (y i : S1x64.Idx)
    (h0 : (i 0).val = (y 0).val) (h1 : (i 1).val = (y 1).val) :
    ((cfg0.win 2).blk t).view.read (Elt Ideal) f y = f i := by
  obtain ⟨-, -, -, -, e0, e1, -⟩ := block_indices t
  rw [View.read_apply]
  refine congrArg f (funext fun a => Fin.ext ?_)
  match a with
  | ⟨0, _⟩ => show win0_2.index t (0 : Fin 2) * 1 + 1 * (y 0).val = (i 0).val; rw [e0, h0]; omega
  | ⟨1, _⟩ => show win0_2.index t (1 : Fin 2) * 64 + 1 * (y 1).val = (i 1).val; rw [e1, h1]; omega

/-- The body's result on point `t`'s blocks of ANY three arrays, read through the result window, is block `t` of their
    affine map: entry (p, q) of the block is the affine map's entry in row `10000·t + p`, column `q`. -/
theorem block_eq (X : S100000x128.Idx → EReal) (W : S128x64.Idx → EReal) (B : S1x64.Idx → EReal) (t : Fin cfg0.N) :
    (cfg0.win 3).cut (grid0.coords t)
        (out0_3 (((cfg0.win 0).blk t).view.read (Elt Ideal) X) (((cfg0.win 1).blk t).view.read (Elt Ideal) W)
          (((cfg0.win 2).blk t).view.read (Elt Ideal) B))
      = ((cfg0.win 3).blk t).view.read (Elt Ideal) (target X W B) := by
  unfold out0_3
  rw [View.canon_unit_zero zero_offsets]
  simp only [View.ld_unit_zero (S := S10000x128) zero_offsets, View.ld_unit_zero (S := S128x64) zero_offsets,
    View.ld_unit_zero (S := S1x64) zero_offsets]
  obtain ⟨-, -, -, -, -, -, e0, e1⟩ := block_indices t
  funext j
  obtain ⟨p, q, rfl⟩ : ∃ (p : Fin 10000) (q : Fin 64), j = ix2 p q := ⟨j 0, j 1, eq_ix2 j⟩
  show k0_pay1 (((cfg0.win 0).blk t).view.read (Elt Ideal) X) (((cfg0.win 1).blk t).view.read (Elt Ideal) W)
      (((cfg0.win 2).blk t).view.read (Elt Ideal) B) (ix2 p q) = target X W B (((cfg0.win 3).blk t).view.emb (ix2 p q))
  refine (Cert.KernelIdeal.Block.stored_entry (((cfg0.win 0).blk t).view.read (Elt Ideal) X)
    (((cfg0.win 1).blk t).view.read (Elt Ideal) W) (((cfg0.win 2).blk t).view.read (Elt Ideal) B) p q).trans ?_
  have hr : ((((cfg0.win 3).blk t).view.emb (ix2 p q)) 0).val = t.val * 10000 + p.val := by
    show win0_3.index t (0 : Fin 2) * 10000 + 1 * p.val = _; rw [e0]; omega
  have hc : ((((cfg0.win 3).blk t).view.emb (ix2 p q)) 1).val = q.val := by
    show win0_3.index t (1 : Fin 2) * 64 + 1 * q.val = _; rw [e1]; omega
  show _ = Cert.Affine.entry (A := 100000) (K := 128) (B := 64) X W (fun j => B (ix2 (0 : Fin 1) (j 0))) _ _
  unfold Cert.Affine.entry
  refine congrArg₂ (· + ·) (Finset.sum_congr rfl fun k _ => congrArg₂ (· * ·) ?_ ?_) ?_
  · exact feature_block X t (ix2 p k) _ hr rfl
  · exact weight_block W t (ix2 k q) _ rfl hc
  · exact bias_block B t (ix2 (0 : Fin 1) q) _ rfl hc

/-- WHAT POINT `t` WRITES BACK is block `t` of the affine map of the arrays the region finds in its three input windows. -/
theorem flushed_eq (c : Dev nD) (t : Fin cfg0.N) :
    (dats m 0 c).flushed 3 t = ((cfg0.win 3).blk t).view.read (Elt Ideal)
      (target (V m c (Pipeline.arrRef spec0 0)) (V m c (Pipeline.arrRef spec0 1)) (V m c (Pipeline.arrRef spec0 2))) := by
  rw [flushed3]
  unfold iblk
  exact block_eq (V m c (Pipeline.arrRef spec0 0)) (V m c (Pipeline.arrRef spec0 1)) (V m c (Pipeline.arrRef spec0 2)) t

/-- An index of the result array is in point `t`'s block iff each coordinate is in the block's range on its axis. -/
theorem mem_block (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v59).slice (win0_3.rect t)).set ↔ _
  rw [View.set_slice_whole, Rect.mem_set_unit]
  exact Iff.rfl

/-- Every index of the result array is in some point's block: row `r` in block `r / 10000`. -/
theorem covered (i : S100000x64.Idx) :
    ∃ t : Fin cfg0.N, (cfg0.win 3).flush t = true ∧ i ∈ ((cfg0.win 3).blk t).view.set := by
  have hN : cfg0.N = 10 := N_0
  have hi0 : (i 0).val < 100000 := (i 0).isLt
  have hi1 : (i 1).val < 64 := (i 1).isLt
  have ht : (i 0).val / 10000 < cfg0.N := by rw [hN]; omega
  obtain ⟨-, -, -, -, -, -, e0, e1⟩ := block_indices ⟨(i 0).val / 10000, ht⟩
  refine ⟨⟨(i 0).val / 10000, ht⟩, flush0_3 _, ?_⟩
  rw [mem_block]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    rw [e1]; omega

/-- THE RESULT ARRAY after the run is the affine map of the arrays the region finds in its three input windows. -/
theorem final (c : Dev nD) : (dats m 0 c).arrAt 3 cfg0.N
    = target (V m c (Pipeline.arrRef spec0 0)) (V m c (Pipeline.arrRef spec0 1)) (V m c (Pipeline.arrRef spec0 2)) :=
  (dats m 0 c).arrAt_eq_of_cover 3 _ (fun t _ => flushed_eq m c t) covered

/-- The kernel's run with the result array named: the affine map; the arguments unchanged. -/
theorem run : θ_run defs (onTc (τ := τ) (main (F := Ideal))) ⟨m, fun _ => 0, ρ⟩ fun r => ∀ c : Dev nD,
      r.2.mem ((c : Thread nD τ).loc main_v59)
        = target (V m c (Pipeline.arrRef spec0 0)) (V m c (Pipeline.arrRef spec0 1)) (V m c (Pipeline.arrRef spec0 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.LibTypedRef.lean ====
/-
  A buffer reference that carries the type of the tensor value it holds moves contents between "the value's type" and
  "the buffer's own type" along the equation between the two. Going one way and then back is the identity, for any
  such reference: the two transports are along an equation and its inverse.
-/
import Idealize.ShloMosaic.Lib.StableHlo

namespace Cert.TypedRef

open Idealize.ShloMosaic Idealize.ShloMosaic.StableHlo

/-- To the buffer's type and back is the identity. -/
theorem ofBuf_toBuf {sig : RefSig} {T : BufTy} {Val : EltTy → Type} (x : TRef sig T) (v : T.Contents Val) :
    x.ofBuf (x.toBuf v) = v := by
  unfold TRef.ofBuf TRef.toBuf
  simp

end Cert.TypedRef
-- ==== Proof.KernelHost.lean ====
/-
  What the kernel's three input windows find: the host operations before the launch, read as functions of the inputs.

  Before it launches its one kernel the program runs fifty-eight host operations. Fifty-seven of them compute the
  propagated feature matrix `%57` from the features and the edge list — the degrees by a scatter-add of ones, their
  inverse square roots, the edge weights, and two rounds of gather, scale and scatter-add —, and they are, operation for
  operation, the reference's own first fifty-seven. So the array the feature window reads is the reference's function
  `val_main_v57` of the same two inputs; it is never opened here, only recognised as the same composition. The last
  host operation reshapes the bias vector [64] to the one-row matrix [1, 64] the bias window reads. The weight window
  reads the weights as launched.
-/
import proofs.«123764_j47107201303130_1_alg».proof.Proof.Gen.KernelIdeal.Frame
import proofs.«123764_j47107201303130_1_alg».proof.Proof.KernelArray
import proofs.«123764_j47107201303130_1_alg».proof.Proof.RefReadP
import proofs.«123764_j47107201303130_1_alg».proof.Proof.LibJoinPair
import proofs.«123764_j47107201303130_1_alg».proof.Proof.LibTypedRef
import Idealize.ShloMosaic.Lib.StableHlo.Run
import Idealize.ShloMosaic.Lib.ValueLayout

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The bias window's array: the bias vector reshaped to one row. -/
theorem bias_host (c : Dev nD) :
    (V m c main_v58 : S1x64.Idx → EReal)
      = shapeCast S1x64 (m ((c : Thread nD τ).loc main_arg3) : S64.Idx → EReal) shapeCasts_S64_S1x64 := by
  dsimp only [Gen.V]
  simp only [Gen.hostOps0, Gen.hostOps0_1, Gen.hostOps0_2, List.flatten_cons, List.flatten_nil, List.append_nil,
    List.cons_append, List.nil_append]
  after_results_simp
  rfl

/-! The operations of the outlined `where` are typed by their tensor values: each moves contents between the value's type
    and its buffer's own type along the equation between the two. For these buffers the two types are the same type, so
    each such move is the identity. -/

theorem toBuf_v16 (h1 : main_v16.ty = (⟨S100000, .f32⟩ : BufTy)) (h2 h3) (v : (⟨S100000, .f32⟩ : BufTy).Contents (Elt Ideal)) :
    (TRef.of main_v16 h1 h2 h3 : TRef sig ⟨S100000, .f32⟩).toBuf v = v := rfl
theorem ofBuf_v12 (h1 : main_v12.ty = (⟨S100000, .i1⟩ : BufTy)) (h2 h3) (v : main_v12.ty.Contents (Elt Ideal)) :
    (TRef.of main_v12 h1 h2 h3 : TRef sig ⟨S100000, .i1⟩).ofBuf v = v := rfl
theorem ofBuf_v15 (h1 : main_v15.ty = (⟨S100000, .f32⟩ : BufTy)) (h2 h3) (v : main_v15.ty.Contents (Elt Ideal)) :
    (TRef.of main_v15 h1 h2 h3 : TRef sig ⟨S100000, .f32⟩).ofBuf v = v := rfl
theorem ofBuf_cst_3 (h1 : main_cst_3.ty = (⟨S_, .f32⟩ : BufTy)) (h2 h3) (v : main_cst_3.ty.Contents (Elt Ideal)) :
    (TRef.of main_cst_3 h1 h2 h3 : TRef sig ⟨S_, .f32⟩).ofBuf v = v := rfl

set_option maxHeartbeats 32000000 in
/-- The feature window's array: the reference's propagated features of the same two inputs. The fold over the host
    operations is evaluated to the composition of their functions (the two-piece joins restated so that their pieces
    are reached), the typed moves of the outlined `where` dropped, and what is left is the reference's composition,
    operation for operation. -/
theorem features_host (c : Dev nD) :
    (V m c main_v57 : S100000x128.Idx → EReal)
      = Cert.ReferenceIdeal.ReadP.val_main_v57 (F := Ideal) (m ((c : Thread nD τ).loc main_arg0)) (m ((c : Thread nD τ).loc main_arg1)) := by
  dsimp only [Gen.V]
  simp only [Gen.hostOps0, Gen.hostOps0_1, Gen.hostOps0_2, List.flatten_cons, List.flatten_nil, List.append_nil,
    List.cons_append, List.nil_append]
  after_results_simp
  simp only [Cert.JoinPair.concatenate_pair_eq]
  after_results_simp
  simp only [Cert.TypedRef.ofBuf_toBuf, toBuf_v16, ofBuf_v12, ofBuf_v15, ofBuf_cst_3]
  rfl

/-- The weight window's array: the weights as launched (no host operation writes them). -/
theorem weights_host (c : Dev nD) : V m c (Pipeline.arrRef spec0 1) = m ((c : Thread nD τ).loc main_arg2) :=
  V_main_arg2 m c

/-- The affine map is the same map of equal arrays, the bias read either as a one-row matrix or as a vector. -/
theorem target_congr {X X' : S100000x128.Idx → EReal} {W W' : S128x64.Idx → EReal} {B : S1x64.Idx → EReal}
    {b : S64.Idx → EReal} (hX : X = X') (hW : W = W') (hB : ∀ j : S64.Idx, B (ix2 (0 : Fin 1) (j 0)) = b j) :
    Cert.KernelIdeal.Whole.target X W B = Cert.Affine.out (A := 100000) (K := 128) (B := 64) X' W' b := by
  subst hX hW
  unfold Cert.KernelIdeal.Whole.target
  exact congrArg (Cert.Affine.out (A := 100000) (K := 128) (B := 64) X W) (funext hB)

/-- The bias window's one row, entry `j`, is the bias vector's entry `j`. -/
theorem bias_row (c : Dev nD) (j : S64.Idx) :
    (V m c (Pipeline.arrRef spec0 2) : S1x64.Idx → EReal) (ix2 (0 : Fin 1) (j 0))
      = (m ((c : Thread nD τ).loc main_arg3) : S64.Idx → EReal) j :=
  ((congrFun (bias_host m c) (ix2 (0 : Fin 1) (j 0))).trans
    (shapeCast_a_1a_apply (m ((c : Thread nD τ).loc main_arg3) : S64.Idx → EReal) shapeCasts_S64_S1x64 (0 : Fin 1) (j 0))).trans
    (congrArg (m ((c : Thread nD τ).loc main_arg3) : S64.Idx → EReal) (eq_ix1 j).symm)

/-- THE KERNEL'S RESULT in the reference's terms: the affine map of the reference's propagated features of the launch
    inputs, the weights and the bias. -/
theorem target_eq (c : Dev nD) :
    Cert.KernelIdeal.Whole.target (V m c (Pipeline.arrRef spec0 0)) (V m c (Pipeline.arrRef spec0 1)) (V m c (Pipeline.arrRef spec0 2))
      = Cert.Affine.out (A := 100000) (K := 128) (B := 64)
          (Cert.ReferenceIdeal.ReadP.val_main_v57 (F := Ideal) (m ((c : Thread nD τ).loc main_arg0)) (m ((c : Thread nD τ).loc main_arg1)))
          (m ((c : Thread nD τ).loc main_arg2)) (m ((c : Thread nD τ).loc main_arg3)) :=
  target_congr (features_host m c) (weights_host m c) (bias_row m c)

end Cert.KernelIdeal.Host

end
-- ==== Proof.lean ====
/-
  A two-hop graph convolution followed by a linear layer: the Pallas kernel against the jnp reference, at the ideal
  values (every float an extended real, every operation exact, a change of float format the identity).

  Both programs first propagate the features over the graph — degrees by a scatter-add of ones over the edge targets
  (self loops added), their inverse square roots, an edge weight `d(src)^(-1/2) · d(dst)^(-1/2)`, and twice: gather the
  source rows, scale by the edge weight, scatter-add into the target rows — by the SAME fifty-seven host operations, and
  then apply the linear layer `features · W + b`:

    * the reference by one `dot_general` over the whole [100000, 128] feature matrix, the bias broadcast over the rows;
    * the kernel in ten blocks of 10000 rows, each block a matrix product into a zero accumulator (its operands rounded
      to bf16, which changes nothing here) plus the bias row.

  Entry (r, c) of either result is `(∑ k < 128, features(r, k) · W(k, c)) + b(c)` — one expression of the same numbers
  (Proof/AffineSpec.lean), so the claim needs no algebraic law beyond re-indexing the contraction, and never uses that
  the inputs are finite. The pieces:

    Proof/KernelEntry.lean   the body's stored value at an entry of a block;
    Proof/KernelArray.lean   the ten blocks cover the array: the kernel's result is the affine map of the arrays its
                             windows read;
    Proof/KernelHost.lean    those arrays as functions of the inputs: the propagated features are the reference's own;
    Proof/RefAffine.lean     the reference's result is the affine map of its propagated features;
    Proof/RefRunP.lean, Proof/RefReadP.lean   the reference's run and its operations read at an index.

  The three frame claims are the generated frames (the reference's is its run with the result dropped); the kernel's
  idealization rewrote nothing, so `preserves` is `True`.
-/
import proofs.«123764_j47107201303130_1_alg».proof.Defs
import proofs.«123764_j47107201303130_1_alg».proof.Proof.Gen.Kernel
import proofs.«123764_j47107201303130_1_alg».proof.Proof.Gen.Kernel.Skeleton
import proofs.«123764_j47107201303130_1_alg».proof.Proof.Gen.Kernel.Launch
import proofs.«123764_j47107201303130_1_alg».proof.Proof.Gen.Kernel.Points
import proofs.«123764_j47107201303130_1_alg».proof.Proof.Gen.Kernel.Frame
import proofs.«123764_j47107201303130_1_alg».proof.Proof.Gen.KernelIdeal
import proofs.«123764_j47107201303130_1_alg».proof.Proof.Gen.KernelIdeal.Skeleton
import proofs.«123764_j47107201303130_1_alg».proof.Proof.Gen.KernelIdeal.Launch
import proofs.«123764_j47107201303130_1_alg».proof.Proof.Gen.KernelIdeal.Points
import proofs.«123764_j47107201303130_1_alg».proof.Proof.Gen.KernelIdeal.Frame
import proofs.«123764_j47107201303130_1_alg».proof.Proof.Gen.KernelIdeal.Value
import proofs.«123764_j47107201303130_1_alg».proof.Proof.Gen.ReferenceIdeal
import proofs.«123764_j47107201303130_1_alg».proof.Proof.Gen.Pre_finite_inputs
import proofs.«123764_j47107201303130_1_alg».proof.Proof.RefRunP
import proofs.«123764_j47107201303130_1_alg».proof.Proof.RefReadP
import proofs.«123764_j47107201303130_1_alg».proof.Proof.RefAffine
import proofs.«123764_j47107201303130_1_alg».proof.Proof.KernelArray
import proofs.«123764_j47107201303130_1_alg».proof.Proof.KernelHost
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end at the affine map of the reference's propagated features of the inputs, the weights and the bias. -/
theorem algebraic : Cert.algebraic_KernelIdeal_ReferenceIdeal := by
  intro m ρ m' ρ' _ hagree
  refine ⟨fun c => Cert.KernelIdeal.Whole.target
      (Cert.KernelIdeal.Gen.V m c (Pipeline.arrRef Cert.KernelIdeal.spec0 0))
      (Cert.KernelIdeal.Gen.V m c (Pipeline.arrRef Cert.KernelIdeal.spec0 1))
      (Cert.KernelIdeal.Gen.V m c (Pipeline.arrRef Cert.KernelIdeal.spec0 2)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v61_eq, Cert.ReferenceIdeal.Affine.result_eq,
    (hagree c).1, (hagree c).2.1, (hagree c).2.2.1, (hagree c).2.2.2]
  exact (Cert.KernelIdeal.Host.target_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
